-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2048x2048 .f32) (main_arg1 : FVec F S2048x2048 .f32) (main_arg2 : FVec F S2048x2048 .f32) (main_arg3 : FVec F S2048 .f32) (main_arg4 : FVec F S2048 .f32) (main_arg5 : FVec F S2048 .f32) (main_arg6 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S1x256 : Shape := ⟨2, ![1, 256]⟩
abbrev S2048x256 : Shape := ⟨2, ![2048, 256]⟩

abbrev nBuf : Space → Nat
  | .hbm => 13
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x1, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x1, .f32⟩
  | .local _ .vmem, ⟨6, _⟩ => ⟨S256x1, .f32⟩
  | .local _ .vmem, ⟨7, _⟩ => ⟨S1x2048, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048_S1x2048 : S2048.ShapeCasts S1x2048
  shapeCasts_S2048_S2048x1 : S2048.ShapeCasts S2048x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_arg0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S1x256 : Shape := ⟨2, ![1, 256]⟩
abbrev S2048x256 : Shape := ⟨2, ![2048, 256]⟩

abbrev nBuf : Space → Nat
  | .hbm => 12
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_arg0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.KernelPoint.lean ====
/-
  One entry of what the fused kernel stores for a block of 256 output features.

  The body forms the effective weight tile w(q, k) = μ(q, k) + σ(q, k) · (εout(q) · εin(k)) from the tile's rows of
  μ and σ, the tile's column of εout and the whole row of εin; multiplies the whole input x by the transpose of that
  tile (both contracted along the input-feature axis); and adds the tile's bias row σb · εout + μb to every batch row.
  So entry (p, q) of the stored value is ∑ₖ x(p, k) · w(q, k) + (σb(q) · εout(q) + μb(q)), with q counted inside
  the tile. The εout column enters through a broadcast along its unit axis, the εin and bias rows through a broadcast
  of their single row; the same-shape casts are the identity.
-/
import proofs.«156496_g2000300704241984_pallasbulk_1338_19_alg».proof.Proof.Gen.KernelIdeal.Skeleton
import proofs.«156496_g2000300704241984_pallasbulk_1338_19_alg».proof.Proof.LibTransposedRhsDot
import proofs.«156496_g2000300704241984_pallasbulk_1338_19_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- Entry (p, q) of the body's stored value, from the loaded blocks: eo the tile's εout column, ei the εin row,
    mu and sg the tile's rows of μ and σ, x the whole input, sb, er, mb the tile's σb, εout and μb rows. -/
theorem pay_apply (eo : FVec Ideal S256x1 .f32) (ei : FVec Ideal S1x2048 .f32) (mu sg : FVec Ideal S256x2048 .f32)
    (x : FVec Ideal S2048x2048 .f32) (sb er mb : FVec Ideal S1x256 .f32) (p : Fin 2048) (q : Fin 256) :
    k0_pay1 (F := Ideal) eo ei mu sg x sb er mb (ix2 p q)
      = (∑ k : Fin 2048, x (ix2 p k) * (mu (ix2 q k) + sg (ix2 q k) * (eo (ix2 q (0 : Fin 1)) * ei (ix2 (0 : Fin 1) k))))
        + (sb (ix2 (0 : Fin 1) q) * er (ix2 (0 : Fin 1) q) + mb (ix2 (0 : Fin 1) q)) := by
  unfold k0_pay1
  rw [addf_apply]
  refine congrArg₂ (· + ·) ?_ ?_
  · refine (Cert.LibTransposedRhsDot.matmul_zero_apply (M := 2048) (K := 2048) (N := 256) none x _ p q).trans ?_
    refine Finset.sum_congr rfl fun k _ => ?_
    rw [addf_apply, mulf_apply, mulf_apply, Cert.Keepdims.broadcastTo_a1_ab_apply, broadcastTo_1b_ab_apply,
      shapeCast_self, shapeCast_self]
  · rw [broadcastTo_1b_ab_apply, addf_apply, mulf_apply, shapeCast_self, shapeCast_self, shapeCast_self]

end Cert.KernelIdeal.Point

end
-- ==== Proof.Spec.lean ====
/-
  The noisy linear layer, written two ways over the extended reals, and the law that joins them.

  For a batch row b and an output feature o, with K input features,

    fused:  ∑ₖ x(b,k) · (μ(o,k) + σ(o,k) · (εout(o) · εin(k)))                       + bias(o)
    split:  ∑ₖ x(b,k) · μ(o,k)  +  (∑ₖ (x(b,k) · εin(k)) · σ(o,k)) · εout(o)          + bias(o)

  with bias(o) = σb(o) · εout(o) + μb(o). The fused form builds one effective weight and multiplies once; the split
  form multiplies twice and scales the second product. They agree by distributing x(b,k) over the inner sum and
  pulling the factor εout(o), which does not depend on k, out of the sum. On the extended reals distributivity fails
  at the infinities, so the law is proved for real entries: every factor is the image of a real number, both sides
  are images of real numbers, and the identity is the one in ℝ. The bias is the same term on both sides and needs
  no finiteness.
-/
import Idealize.ShloMosaic.Lib.ValueIdx
import Idealize.ShloMosaic.PureOps.Ideal.Laws

noncomputable section

open scoped BigOperators

namespace Cert.NoisyLinear

open Idealize.ShloMosaic Idealize.ShloMosaic.ValueIdx

/-- A 2048 × 2048 array of extended reals. -/
abbrev Mat : Type := FVec Ideal ⟨2, ![2048, 2048]⟩ .f32
/-- A length-2048 array of extended reals. -/
abbrev Row : Type := FVec Ideal ⟨1, ![2048]⟩ .f32

/-- The effective bias of output feature o: σb(o) · εout(o) + μb(o). -/
def bias (mb sb eo : Row) (o : Fin 2048) : EReal := sb (ix1 o) * eo (ix1 o) + mb (ix1 o)

/-- Entry (b, o) of the fused form: x against the effective weight μ + σ · (εout ⊗ εin), plus the bias. -/
def fusedAt (x mu sg : Mat) (mb sb ei eo : Row) (b o : Fin 2048) : EReal :=
  (∑ k : Fin 2048, x (ix2 b k) * (mu (ix2 o k) + sg (ix2 o k) * (eo (ix1 o) * ei (ix1 k)))) + bias mb sb eo o

/-- Entry (b, o) of the split form: the μ product, plus the σ product of the noised input scaled by εout(o), plus the bias. -/
def splitAt (x mu sg : Mat) (mb sb ei eo : Row) (b o : Fin 2048) : EReal :=
  ((∑ k : Fin 2048, x (ix2 b k) * mu (ix2 o k)) + (∑ k : Fin 2048, (x (ix2 b k) * ei (ix1 k)) * sg (ix2 o k)) * eo (ix1 o))
    + bias mb sb eo o

/-- The fused form as a whole array. -/
def fused (x mu sg : Mat) (mb sb ei eo : Row) : Mat := fun j => fusedAt x mu sg mb sb ei eo (j 0) (j 1)

/-- The split form as a whole array. -/
def split (x mu sg : Mat) (mb sb ei eo : Row) : Mat := fun j => splitAt x mu sg mb sb ei eo (j 0) (j 1)

theorem fused_ix2 (x mu sg : Mat) (mb sb ei eo : Row) (b o : Fin 2048) :
    fused x mu sg mb sb ei eo (ix2 b o) = fusedAt x mu sg mb sb ei eo b o := rfl

theorem split_ix2 (x mu sg : Mat) (mb sb ei eo : Row) (b o : Fin 2048) :
    split x mu sg mb sb ei eo (ix2 b o) = splitAt x mu sg mb sb ei eo b o := rfl

/-- A finite sum of images of reals is the image of the real sum. -/
theorem coe_sum {ι : Type} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- The law on real entries: distributing a(k) over b(k) + c(k) · (e · d(k)) and pulling e out of the sum. -/
theorem fold_law {n : ℕ} (a b c d : Fin n → ℝ) (e : ℝ) :
    (∑ k : Fin n, (a k : EReal) * ((b k : EReal) + (c k : EReal) * ((e : EReal) * (d k : EReal))))
      = (∑ k : Fin n, (a k : EReal) * (b k : EReal)) + (∑ k : Fin n, ((a k : EReal) * (d k : EReal)) * (c k : EReal)) * (e : EReal) := by
  have hreal : (∑ k : Fin n, a k * (b k + c k * (e * d k))) = (∑ k : Fin n, a k * b k) + (∑ k : Fin n, (a k * d k) * c k) * e := by
    rw [Finset.sum_mul, ← Finset.sum_add_distrib]
    exact Finset.sum_congr rfl fun k _ => by ring
  calc (∑ k : Fin n, (a k : EReal) * ((b k : EReal) + (c k : EReal) * ((e : EReal) * (d k : EReal))))
      = ∑ k : Fin n, ((a k * (b k + c k * (e * d k)) : ℝ) : EReal) :=
        Finset.sum_congr rfl fun k _ => by rw [EReal.coe_mul, EReal.coe_add, EReal.coe_mul, EReal.coe_mul]
    _ = ((∑ k : Fin n, a k * (b k + c k * (e * d k)) : ℝ) : EReal) := coe_sum _ _
    _ = (((∑ k : Fin n, a k * b k) + (∑ k : Fin n, (a k * d k) * c k) * e : ℝ) : EReal) := by rw [hreal]
    _ = ((∑ k : Fin n, a k * b k : ℝ) : EReal) + ((∑ k : Fin n, (a k * d k) * c k : ℝ) : EReal) * (e : EReal) := by
        rw [EReal.coe_add, EReal.coe_mul]
    _ = (∑ k : Fin n, ((a k * b k : ℝ) : EReal)) + (∑ k : Fin n, (((a k * d k) * c k : ℝ) : EReal)) * (e : EReal) := by
        rw [coe_sum, coe_sum]
    _ = _ := by
        refine congrArg₂ (· + ·) (Finset.sum_congr rfl fun k _ => EReal.coe_mul _ _) ?_
        refine congrArg (· * (e : EReal)) (Finset.sum_congr rfl fun k _ => ?_)
        rw [EReal.coe_mul, EReal.coe_mul]

/-- With real entries in x, μ, σ, εin and εout the two forms are one array. -/
theorem fused_eq_split (x mu sg : Mat) (mb sb ei eo : Row)
    (hx : ∀ i, ∃ r : ℝ, x i = (r : EReal)) (hmu : ∀ i, ∃ r : ℝ, mu i = (r : EReal)) (hsg : ∀ i, ∃ r : ℝ, sg i = (r : EReal))
    (hei : ∀ i, ∃ r : ℝ, ei i = (r : EReal)) (heo : ∀ i, ∃ r : ℝ, eo i = (r : EReal)) :
    fused x mu sg mb sb ei eo = split x mu sg mb sb ei eo := by
  choose x' hx using hx
  choose mu' hmu using hmu
  choose sg' hsg using hsg
  choose ei' hei using hei
  choose eo' heo using heo
  funext j
  show fusedAt x mu sg mb sb ei eo (j 0) (j 1) = splitAt x mu sg mb sb ei eo (j 0) (j 1)
  unfold fusedAt splitAt
  refine congrArg (· + bias mb sb eo (j 1)) ?_
  simp only [hx, hmu, hsg, hei, heo]
  exact fold_law (fun k => x' (ix2 (j 0) k)) (fun k => mu' (ix2 (j 1) k)) (fun k => sg' (ix2 (j 1) k)) (fun k => ei' (ix1 k)) (eo' (ix1 (j 1)))

end Cert.NoisyLinear

end
-- ==== Proof.KernelArray.lean ====
/-
  The fused kernel's result array as one function of the argument arrays.

  The grid has eight points; point t computes the 256 output features t·256 … t·256 + 255 for every batch row. Its
  input blocks are: all of x; rows t·256 … of μ and σ; the same rows of the εout column; all of the εin row; and the
  columns t·256 … of the μb, σb and εout rows. The column and the rows are reshapes of the length-2048 arguments, made
  before the kernel is launched, so an entry of a block is an entry of an argument array at the block's offset.
  Reading the stored value of point t entry by entry through these blocks gives the fused form of the layer at
  (batch row, t·256 + column): point t writes back block t of that one array. The eight blocks tile the result, the
  one covering column o being point o / 256, so the result array is the fused form everywhere.
-/
import proofs.«156496_g2000300704241984_pallasbulk_1338_19_alg».proof.Proof.Gen.KernelIdeal.Value
import proofs.«156496_g2000300704241984_pallasbulk_1338_19_alg».proof.Proof.KernelPoint
import proofs.«156496_g2000300704241984_pallasbulk_1338_19_alg».proof.Proof.Spec
import proofs.«156496_g2000300704241984_pallasbulk_1338_19_alg».proof.Proof.LibKeepdims
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.NoisyLinear

variable (m : (ℓ : Loc nD τ sig) → Buf (Elt Ideal) ℓ) (ρ : Dev nD → PrngReg)

theorem hz : (![0, 0] : Fin 2 → Nat) = fun _ => 0 := funext fun a => by fin_cases a <;> rfl

/-- The grid has eight points. -/
theorem lt8 (t : Fin cfg0.N) : t.val < 8 := by
  exact lt_of_lt_of_eq t.isLt (show cfg0.N = 8 from N_0)

/-- The block index of each window at point t, decided over the eight points: x and the εin row stay at block (0, 0);
    μ, σ and the εout column move down by t blocks of rows; the three bias-side rows and the result move right by t
    blocks of columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-! ## The reshaped arguments, as the kernel finds them -/

/-- The εin row is the εin argument cast to one row. -/
theorem V_v0 (c : Dev nD) : (V m c main_v0 : S1x2048.Idx → EReal)
    = shapeCast S1x2048 (m ((c : Thread nD τ).loc main_arg5)) shapeCasts_S2048_S1x2048 := by
  dsimp only [Gen.V, Gen.hostOps0]; after_results; rfl

/-- The εout column is the εout argument cast to one column. -/
theorem V_v1 (c : Dev nD) : (V m c main_v1 : S2048x1.Idx → EReal)
    = shapeCast S2048x1 (m ((c : Thread nD τ).loc main_arg6)) shapeCasts_S2048_S2048x1 := by
  dsimp only [Gen.V, Gen.hostOps0]; after_results; rfl

/-- The εout row is the εout argument cast to one row. -/
theorem V_v2 (c : Dev nD) : (V m c main_v2 : S1x2048.Idx → EReal)
    = shapeCast S1x2048 (m ((c : Thread nD τ).loc main_arg6)) shapeCasts_S2048_S1x2048 := by
  dsimp only [Gen.V, Gen.hostOps0]; after_results; rfl

/-- The μb row is the μb argument cast to one row. -/
theorem V_v3 (c : Dev nD) : (V m c main_v3 : S1x2048.Idx → EReal)
    = shapeCast S1x2048 (m ((c : Thread nD τ).loc main_arg3)) shapeCasts_S2048_S1x2048 := by
  dsimp only [Gen.V, Gen.hostOps0]; after_results; rfl

/-- The σb row is the σb argument cast to one row. -/
theorem V_v4 (c : Dev nD) : (V m c main_v4 : S1x2048.Idx → EReal)
    = shapeCast S1x2048 (m ((c : Thread nD τ).loc main_arg4)) shapeCasts_S2048_S1x2048 := by
  dsimp only [Gen.V, Gen.hostOps0]; after_results; rfl

/-! ## Each input block, entry by entry -/

/-- x's block at any point is all of x. -/
theorem blk0 (c : Dev nD) (t : Fin cfg0.N) (p k : Fin 2048) :
    iblk m c 0 t (ix2 p k) = m ((c : Thread nD τ).loc main_arg0) (ix2 p k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 2048 + 1 * p.val = p.val; omega
  | ⟨1, _⟩ => show win0_0.index t (1 : Fin 2) * 2048 + 1 * k.val = k.val; omega

/-- μ's block at point t is rows t·256 … of μ. -/
theorem blk1 (c : Dev nD) (t : Fin cfg0.N) (q : Fin 256) (k : Fin 2048) (hq : t.val * 256 + q.val < 2048) :
    iblk m c 1 t (ix2 q k) = m ((c : Thread nD τ).loc main_arg1) (ix2 (⟨t.val * 256 + q.val, hq⟩ : Fin 2048) k) := by
  show V m c main_arg1 (((cfg0.win 1).blk t).view.emb (ix2 q k)) = _
  rw [V_main_arg1]
  obtain ⟨-, -, e0, e1, -⟩ := idx_facts t
  refine congrArg _ (funext fun a => Fin.ext ?_)
  match a with
  | ⟨0, _⟩ => show win0_1.index t (0 : Fin 2) * 256 + 1 * q.val = t.val * 256 + q.val; omega
  | ⟨1, _⟩ => show win0_1.index t (1 : Fin 2) * 2048 + 1 * k.val = k.val; omega

/-- σ's block at point t is rows t·256 … of σ. -/
theorem blk2 (c : Dev nD) (t : Fin cfg0.N) (q : Fin 256) (k : Fin 2048) (hq : t.val * 256 + q.val < 2048) :
    iblk m c 2 t (ix2 q k) = m ((c : Thread nD τ).loc main_arg2) (ix2 (⟨t.val * 256 + q.val, hq⟩ : Fin 2048) k) := by
  show V m c main_arg2 (((cfg0.win 2).blk t).view.emb (ix2 q k)) = _
  rw [V_main_arg2]
  obtain ⟨-, -, -, -, e0, e1, -⟩ := idx_facts t
  refine congrArg _ (funext fun a => Fin.ext ?_)
  match a with
  | ⟨0, _⟩ => show win0_2.index t (0 : Fin 2) * 256 + 1 * q.val = t.val * 256 + q.val; omega
  | ⟨1, _⟩ => show win0_2.index t (1 : Fin 2) * 2048 + 1 * k.val = k.val; omega

/-- The εout column's block at point t is entries t·256 … of εout. -/
theorem blk3 (c : Dev nD) (t : Fin cfg0.N) (q : Fin 256) (hq : t.val * 256 + q.val < 2048) :
    iblk m c 3 t (ix2 q (0 : Fin 1)) = m ((c : Thread nD τ).loc main_arg6) (ix1 (⟨t.val * 256 + q.val, hq⟩ : Fin 2048)) := by
  show V m c main_v1 (((cfg0.win 3).blk t).view.emb (ix2 q (0 : Fin 1))) = _
  have e : ((cfg0.win 3).blk t).view.emb (ix2 q (0 : Fin 1)) = (ix2 (⟨t.val * 256 + q.val, hq⟩ : Fin 2048) (0 : Fin 1) : S2048x1.Idx) := by
    obtain ⟨-, -, -, -, -, -, e0, e1, -⟩ := idx_facts t
    funext a; apply Fin.ext
    match a with
    | ⟨0, _⟩ => show win0_3.index t (0 : Fin 2) * 256 + 1 * q.val = t.val * 256 + q.val; omega
    | ⟨1, _⟩ => show win0_3.index t (1 : Fin 2) * 1 + 1 * 0 = 0; omega
  rw [e, V_v1 m c]
  exact Cert.Keepdims.shapeCast_a_a1_apply _ _ _ _

/-- The εin row's block at any point is all of εin. -/
theorem blk4 (c : Dev nD) (t : Fin cfg0.N) (k : Fin 2048) :
    iblk m c 4 t (ix2 (0 : Fin 1) k) = m ((c : Thread nD τ).loc main_arg5) (ix1 k) := by
  show V m c main_v0 (((cfg0.win 4).blk t).view.emb (ix2 (0 : Fin 1) k)) = _
  have e : ((cfg0.win 4).blk t).view.emb (ix2 (0 : Fin 1) k) = (ix2 (0 : Fin 1) k : S1x2048.Idx) := by
    obtain ⟨-, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 2048 + 1 * k.val = k.val; omega
  rw [e, V_v0 m c]
  exact shapeCast_a_1a_apply _ _ _ _

/-- The μb row's block at point t is entries t·256 … of μb. -/
theorem blk5 (c : Dev nD) (t : Fin cfg0.N) (q : Fin 256) (hq : t.val * 256 + q.val < 2048) :
    iblk m c 5 t (ix2 (0 : Fin 1) q) = m ((c : Thread nD τ).loc main_arg3) (ix1 (⟨t.val * 256 + q.val, hq⟩ : Fin 2048)) := by
  show V m c main_v3 (((cfg0.win 5).blk t).view.emb (ix2 (0 : Fin 1) q)) = _
  have e : ((cfg0.win 5).blk t).view.emb (ix2 (0 : Fin 1) q) = (ix2 (0 : Fin 1) (⟨t.val * 256 + q.val, hq⟩ : Fin 2048) : S1x2048.Idx) := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 256 + 1 * q.val = t.val * 256 + q.val; omega
  rw [e, V_v3 m c]
  exact shapeCast_a_1a_apply _ _ _ _

/-- The σb row's block at point t is entries t·256 … of σb. -/
theorem blk6 (c : Dev nD) (t : Fin cfg0.N) (q : Fin 256) (hq : t.val * 256 + q.val < 2048) :
    iblk m c 6 t (ix2 (0 : Fin 1) q) = m ((c : Thread nD τ).loc main_arg4) (ix1 (⟨t.val * 256 + q.val, hq⟩ : Fin 2048)) := by
  show V m c main_v4 (((cfg0.win 6).blk t).view.emb (ix2 (0 : Fin 1) q)) = _
  have e : ((cfg0.win 6).blk t).view.emb (ix2 (0 : Fin 1) q) = (ix2 (0 : Fin 1) (⟨t.val * 256 + q.val, hq⟩ : Fin 2048) : S1x2048.Idx) := by
    obtain ⟨-, -, -, -, -, -, -, -, -, -, -, -, e0, e1, -⟩ := idx_facts t
    funext a; apply Fin.ext
    match a with
    | ⟨0, _⟩ => show win0_6.index t (0 : Fin 2) * 1 + 1 * 0 = 0; omega
    | ⟨1, _⟩ => show win0_6.index t (1 : Fin 2) * 256 + 1 * q.val = t.val * 256 + q.val; omega
  rw [e, V_v4 m c]
  exact shapeCast_a_1a_apply _ _ _ _

/-- The εout row's block at point t is entries t·256 … of εout. -/
theorem blk7 (c : Dev nD) (t : Fin cfg0.N) (q : Fin 256) (hq : t.val * 256 + q.val < 2048) :
    iblk m c 7 t (ix2 (0 : Fin 1) q) = m ((c : Thread nD τ).loc main_arg6) (ix1 (⟨t.val * 256 + q.val, hq⟩ : Fin 2048)) := by
  show V m c main_v2 (((cfg0.win 7).blk t).view.emb (ix2 (0 : Fin 1) q)) = _
  have e : ((cfg0.win 7).blk t).view.emb (ix2 (0 : Fin 1) q) = (ix2 (0 : Fin 1) (⟨t.val * 256 + q.val, hq⟩ : Fin 2048) : S1x2048.Idx) := by
    obtain ⟨-, -, -, -, -, -, -, -, -, -, -, -, -, -, e0, e1, -⟩ := idx_facts t
    funext a; apply Fin.ext
    match a with
    | ⟨0, _⟩ => show win0_7.index t (0 : Fin 2) * 1 + 1 * 0 = 0; omega
    | ⟨1, _⟩ => show win0_7.index t (1 : Fin 2) * 256 + 1 * q.val = t.val * 256 + q.val; omega
  rw [e, V_v2 m c]
  exact shapeCast_a_1a_apply _ _ _ _

/-! ## What point t writes back -/

/-- Entry (p, q) of point t's stored value is the fused form at batch row p and output feature t·256 + q. -/
theorem stored_entry (c : Dev nD) (t : Fin cfg0.N) (p : Fin 2048) (q : Fin 256) (hq : t.val * 256 + q.val < 2048) :
    k0_pay1 (F := Ideal) (iblk m c 3 t) (iblk m c 4 t) (iblk m c 1 t) (iblk m c 2 t) (iblk m c 0 t) (iblk m c 6 t)
        (iblk m c 7 t) (iblk m c 5 t) (ix2 p q)
      = fusedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p (⟨t.val * 256 + q.val, hq⟩ : Fin 2048) := by
  refine (Cert.KernelIdeal.Point.pay_apply (iblk m c 3 t) (iblk m c 4 t) (iblk m c 1 t) (iblk m c 2 t) (iblk m c 0 t)
    (iblk m c 6 t) (iblk m c 7 t) (iblk m c 5 t) p q).trans ?_
  unfold fusedAt bias
  refine congrArg₂ (· + ·) (Finset.sum_congr rfl fun k _ => ?_) ?_
  · rw [blk0 m c t p k, blk1 m c t q k hq, blk2 m c t q k hq, blk3 m c t q hq, blk4 m c t k]
  · rw [blk6 m c t q hq, blk7 m c t q hq, blk5 m c t q hq]

/-- Point t writes back block t of the fused form of the argument arrays. -/
theorem flushed_eq (c : Dev nD) (t : Fin cfg0.N) :
    (dats m 0 c).flushed 8 t = ((cfg0.win 8).blk t).view.read (Elt Ideal) (fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed8]
  unfold out0_8
  rw [View.canon_unit_zero hz]
  simp only [View.ld_unit_zero (S := S256x1) hz, View.ld_unit_zero (S := S1x2048) hz, View.ld_unit_zero (S := S256x2048) hz,
    View.ld_unit_zero (S := S2048x2048) hz, View.ld_unit_zero (S := S1x256) hz]
  funext y
  obtain ⟨p, q, rfl⟩ : ∃ (p : Fin 2048) (q : Fin 256), y = ix2 p q := ⟨y 0, y 1, eq_ix2 y⟩
  have ht := lt8 t
  have hq : t.val * 256 + q.val < 2048 := by have := q.isLt; omega
  have e8 : ((cfg0.win 8).blk t).view.emb (ix2 p q) = (ix2 p (⟨t.val * 256 + q.val, hq⟩ : Fin 2048) : S2048x2048.Idx) := by
    obtain ⟨-, -, -, -, -, -, -, -, -, -, -, -, -, -, -, -, e0, e1⟩ := idx_facts t
    funext a; apply Fin.ext
    match a with
    | ⟨0, _⟩ => show win0_8.index t (0 : Fin 2) * 2048 + 1 * p.val = p.val; omega
    | ⟨1, _⟩ => show win0_8.index t (1 : Fin 2) * 256 + 1 * q.val = t.val * 256 + q.val; omega
  show k0_pay1 (F := Ideal) (iblk m c 3 t) (iblk m c 4 t) (iblk m c 1 t) (iblk m c 2 t) (iblk m c 0 t) (iblk m c 6 t)
      (iblk m c 7 t) (iblk m c 5 t) (ix2 p q)
    = fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p q))
  rw [e8, fused_ix2]
  exact stored_entry m c t p q hq

/-! ## The eight blocks tile the result -/

/-- An index of the result is in point t's block iff each coordinate is in the block's range on its axis. -/
theorem mem_blk (t : Fin cfg0.N) (i : S2048x2048.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v5).slice (win0_8.rect t)).set ↔ _
  rw [View.set_slice_whole, Rect.mem_set_unit]
  exact Iff.rfl

/-- Every index of the result is in the block of the point its column falls in. -/
theorem cover (i : S2048x2048.Idx) : ∃ t : Fin cfg0.N, (cfg0.win 8).flush t = true ∧ i ∈ ((cfg0.win 8).blk t).view.set := by
  have hi0 : (i 0).val < 2048 := (i 0).isLt
  have hi1 : (i 1).val < 2048 := (i 1).isLt
  obtain ⟨t, htv⟩ : ∃ t : Fin cfg0.N, t.val = (i 1).val / 256 :=
    ⟨⟨(i 1).val / 256, by rw [show cfg0.N = 8 from N_0]; omega⟩, rfl⟩
  refine ⟨t, flush0_8 t, ?_⟩
  rw [mem_blk]
  obtain ⟨-, -, -, -, -, -, -, -, -, -, -, -, -, -, -, -, e0, e1⟩ := idx_facts t
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 256 ≤ (i 1).val ∧ (i 1).val < win0_8.index t (1 : Fin 2) * 256 + 256; omega

/-- The result array after the run is the fused form of the argument arrays. -/
theorem final (c : Dev nD) : (dats m 0 c).arrAt 8 cfg0.N = fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => flushed_eq m c t) cover

/-- Every weakly fair execution ends with the result at the fused form of the arguments, the arguments unchanged. -/
theorem run : θ_run defs (onTc (τ := τ) (main (F := Ideal))) ⟨m, fun _ => 0, ρ⟩ fun r => ∀ c : Dev nD,
      r.2.mem ((c : Thread nD τ).loc main_v5) = fused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.RefPoint.lean ====
/-
  One entry of what the two-product kernel stores for a block of 256 output features.

  The body multiplies the whole input x by the transpose of the tile's rows of μ; scales x column-wise by the εin row
  and multiplies that by the transpose of the tile's rows of σ; scales the second product column-wise by the tile's
  εout row; adds the two; and adds the tile's bias row σb · εout + μb to every batch row. So entry (p, q) of the stored
  value is (∑ₖ x(p, k) · μ(q, k) + (∑ₖ (x(p, k) · εin(k)) · σ(q, k)) · εout(q)) + (σb(q) · εout(q) + μb(q)), with q
  counted inside the tile. The rows enter through a broadcast of their single row; the same-shape casts are the identity.
-/
import proofs.«156496_g2000300704241984_pallasbulk_1338_19_alg».proof.Proof.Gen.ReferenceIdeal.Skeleton
import proofs.«156496_g2000300704241984_pallasbulk_1338_19_alg».proof.Proof.LibTransposedRhsDot
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.ReferenceIdeal.Point

open Cert.ReferenceIdeal Cert.ReferenceIdeal.Gen Idealize.ShloMosaic Idealize.ShloMosaic.ValueIdx

/-- Entry (p, q) of the body's stored value, from the loaded blocks: x the whole input, er the tile's εout row,
    mu and sg the tile's rows of μ and σ, ei the εin row, sb and mb the tile's σb and μb rows. -/
theorem pay_apply (x : FVec Ideal S2048x2048 .f32) (er : FVec Ideal S1x256 .f32) (mu : FVec Ideal S256x2048 .f32)
    (ei : FVec Ideal S1x2048 .f32) (sg : FVec Ideal S256x2048 .f32) (sb mb : FVec Ideal S1x256 .f32)
    (p : Fin 2048) (q : Fin 256) :
    k0_pay1 (F := Ideal) x er mu ei sg sb mb (ix2 p q)
      = ((∑ k : Fin 2048, x (ix2 p k) * mu (ix2 q k))
          + (∑ k : Fin 2048, (x (ix2 p k) * ei (ix2 (0 : Fin 1) k)) * sg (ix2 q k)) * er (ix2 (0 : Fin 1) q))
        + (sb (ix2 (0 : Fin 1) q) * er (ix2 (0 : Fin 1) q) + mb (ix2 (0 : Fin 1) q)) := by
  unfold k0_pay1
  rw [addf_apply, addf_apply]
  refine congrArg₂ (· + ·) (congrArg₂ (· + ·) ?_ ?_) ?_
  · exact Cert.LibTransposedRhsDot.matmul_zero_apply (M := 2048) (K := 2048) (N := 256) none x mu p q
  · rw [mulf_apply]
    refine congrArg₂ (· * ·) ?_ ?_
    · refine (Cert.LibTransposedRhsDot.matmul_zero_apply (M := 2048) (K := 2048) (N := 256) none _ sg p q).trans ?_
      refine Finset.sum_congr rfl fun k _ => ?_
      rw [mulf_apply, broadcastTo_1b_ab_apply, shapeCast_self]
    · rw [broadcastTo_1b_ab_apply, shapeCast_self]
  · rw [broadcastTo_1b_ab_apply, addf_apply, mulf_apply, shapeCast_self, shapeCast_self, shapeCast_self]

end Cert.ReferenceIdeal.Point

end
-- ==== Proof.RefArray.lean ====
/-
  The two-product kernel's result array as one function of the argument arrays.

  The grid has eight points; point t computes the 256 output features t·256 … t·256 + 255 for every batch row. Its
  input blocks are: all of x; rows t·256 … of μ and σ; all of the εin row; and the columns t·256 … of the εout, μb and
  σb rows. The rows are reshapes of the length-2048 arguments, made before the kernel is launched, so an entry of a block
  is an entry of an argument array at the block's offset. Reading the stored value of point t entry by entry through these
  blocks gives the split form of the layer at (batch row, t·256 + column): point t writes back block t of that one
  array. The eight blocks tile the result, the one covering column o being point o / 256, so the result array is the
  split form everywhere.
-/
import proofs.«156496_g2000300704241984_pallasbulk_1338_19_alg».proof.Proof.Gen.ReferenceIdeal.Value
import proofs.«156496_g2000300704241984_pallasbulk_1338_19_alg».proof.Proof.RefPoint
import proofs.«156496_g2000300704241984_pallasbulk_1338_19_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem
open Idealize.ShloMosaic.ValueIdx Idealize.ShloMosaic.StableHlo
open Idealize.ShloMosaic.Pipeline (Dat)
open Cert.NoisyLinear

variable (m : (ℓ : Loc nD τ sig) → Buf (Elt Ideal) ℓ) (ρ : Dev nD → PrngReg)

theorem hz : (![0, 0] : Fin 2 → Nat) = fun _ => 0 := funext fun a => by fin_cases a <;> rfl

/-- The grid has eight points. -/
theorem lt8 (t : Fin cfg0.N) : t.val < 8 := by
  exact lt_of_lt_of_eq t.isLt (show cfg0.N = 8 from N_0)

/-- The block index of each window at point t, decided over the eight points: x and the εin row stay at block (0, 0);
    μ and σ move down by t blocks of rows; the εout, μb and σb rows and the result move right by t blocks of columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-! ## The reshaped arguments, as the kernel finds them -/

/-- The μb row is the μb argument cast to one row. -/
theorem V_v0 (c : Dev nD) : (V m c main_v0 : S1x2048.Idx → EReal)
    = shapeCast S1x2048 (m ((c : Thread nD τ).loc main_arg3)) shapeCasts_S2048_S1x2048 := by
  dsimp only [Gen.V, Gen.hostOps0]; after_results; rfl

/-- The σb row is the σb argument cast to one row. -/
theorem V_v1 (c : Dev nD) : (V m c main_v1 : S1x2048.Idx → EReal)
    = shapeCast S1x2048 (m ((c : Thread nD τ).loc main_arg4)) shapeCasts_S2048_S1x2048 := by
  dsimp only [Gen.V, Gen.hostOps0]; after_results; rfl

/-- The εin row is the εin argument cast to one row. -/
theorem V_v2 (c : Dev nD) : (V m c main_v2 : S1x2048.Idx → EReal)
    = shapeCast S1x2048 (m ((c : Thread nD τ).loc main_arg5)) shapeCasts_S2048_S1x2048 := by
  dsimp only [Gen.V, Gen.hostOps0]; after_results; rfl

/-- The εout row is the εout argument cast to one row. -/
theorem V_v3 (c : Dev nD) : (V m c main_v3 : S1x2048.Idx → EReal)
    = shapeCast S1x2048 (m ((c : Thread nD τ).loc main_arg6)) shapeCasts_S2048_S1x2048 := by
  dsimp only [Gen.V, Gen.hostOps0]; after_results; rfl

/-! ## Each input block, entry by entry -/

/-- x's block at any point is all of x. -/
theorem blk0 (c : Dev nD) (t : Fin cfg0.N) (p k : Fin 2048) :
    iblk m c 0 t (ix2 p k) = m ((c : Thread nD τ).loc main_arg0) (ix2 p k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 2048 + 1 * p.val = p.val; omega
  | ⟨1, _⟩ => show win0_0.index t (1 : Fin 2) * 2048 + 1 * k.val = k.val; omega

/-- μ's block at point t is rows t·256 … of μ. -/
theorem blk1 (c : Dev nD) (t : Fin cfg0.N) (q : Fin 256) (k : Fin 2048) (hq : t.val * 256 + q.val < 2048) :
    iblk m c 1 t (ix2 q k) = m ((c : Thread nD τ).loc main_arg1) (ix2 (⟨t.val * 256 + q.val, hq⟩ : Fin 2048) k) := by
  show V m c main_arg1 (((cfg0.win 1).blk t).view.emb (ix2 q k)) = _
  rw [V_main_arg1]
  obtain ⟨-, -, e0, e1, -⟩ := idx_facts t
  refine congrArg _ (funext fun a => Fin.ext ?_)
  match a with
  | ⟨0, _⟩ => show win0_1.index t (0 : Fin 2) * 256 + 1 * q.val = t.val * 256 + q.val; omega
  | ⟨1, _⟩ => show win0_1.index t (1 : Fin 2) * 2048 + 1 * k.val = k.val; omega

/-- σ's block at point t is rows t·256 … of σ. -/
theorem blk2 (c : Dev nD) (t : Fin cfg0.N) (q : Fin 256) (k : Fin 2048) (hq : t.val * 256 + q.val < 2048) :
    iblk m c 2 t (ix2 q k) = m ((c : Thread nD τ).loc main_arg2) (ix2 (⟨t.val * 256 + q.val, hq⟩ : Fin 2048) k) := by
  show V m c main_arg2 (((cfg0.win 2).blk t).view.emb (ix2 q k)) = _
  rw [V_main_arg2]
  obtain ⟨-, -, -, -, e0, e1, -⟩ := idx_facts t
  refine congrArg _ (funext fun a => Fin.ext ?_)
  match a with
  | ⟨0, _⟩ => show win0_2.index t (0 : Fin 2) * 256 + 1 * q.val = t.val * 256 + q.val; omega
  | ⟨1, _⟩ => show win0_2.index t (1 : Fin 2) * 2048 + 1 * k.val = k.val; omega

/-- The εin row's block at any point is all of εin. -/
theorem blk3 (c : Dev nD) (t : Fin cfg0.N) (k : Fin 2048) :
    iblk m c 3 t (ix2 (0 : Fin 1) k) = m ((c : Thread nD τ).loc main_arg5) (ix1 k) := by
  show V m c main_v2 (((cfg0.win 3).blk t).view.emb (ix2 (0 : Fin 1) k)) = _
  have e : ((cfg0.win 3).blk t).view.emb (ix2 (0 : Fin 1) k) = (ix2 (0 : Fin 1) k : S1x2048.Idx) := by
    obtain ⟨-, -, -, -, -, -, e0, e1, -⟩ := idx_facts t
    funext a; apply Fin.ext
    match a with
    | ⟨0, _⟩ => show win0_3.index t (0 : Fin 2) * 1 + 1 * 0 = 0; omega
    | ⟨1, _⟩ => show win0_3.index t (1 : Fin 2) * 2048 + 1 * k.val = k.val; omega
  rw [e, V_v2 m c]
  exact shapeCast_a_1a_apply _ _ _ _

/-- The εout row's block at point t is entries t·256 … of εout. -/
theorem blk4 (c : Dev nD) (t : Fin cfg0.N) (q : Fin 256) (hq : t.val * 256 + q.val < 2048) :
    iblk m c 4 t (ix2 (0 : Fin 1) q) = m ((c : Thread nD τ).loc main_arg6) (ix1 (⟨t.val * 256 + q.val, hq⟩ : Fin 2048)) := by
  show V m c main_v3 (((cfg0.win 4).blk t).view.emb (ix2 (0 : Fin 1) q)) = _
  have e : ((cfg0.win 4).blk t).view.emb (ix2 (0 : Fin 1) q) = (ix2 (0 : Fin 1) (⟨t.val * 256 + q.val, hq⟩ : Fin 2048) : S1x2048.Idx) := by
    obtain ⟨-, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 256 + 1 * q.val = t.val * 256 + q.val; omega
  rw [e, V_v3 m c]
  exact shapeCast_a_1a_apply _ _ _ _

/-- The μb row's block at point t is entries t·256 … of μb. -/
theorem blk5 (c : Dev nD) (t : Fin cfg0.N) (q : Fin 256) (hq : t.val * 256 + q.val < 2048) :
    iblk m c 5 t (ix2 (0 : Fin 1) q) = m ((c : Thread nD τ).loc main_arg3) (ix1 (⟨t.val * 256 + q.val, hq⟩ : Fin 2048)) := by
  show V m c main_v0 (((cfg0.win 5).blk t).view.emb (ix2 (0 : Fin 1) q)) = _
  have e : ((cfg0.win 5).blk t).view.emb (ix2 (0 : Fin 1) q) = (ix2 (0 : Fin 1) (⟨t.val * 256 + q.val, hq⟩ : Fin 2048) : S1x2048.Idx) := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 256 + 1 * q.val = t.val * 256 + q.val; omega
  rw [e, V_v0 m c]
  exact shapeCast_a_1a_apply _ _ _ _

/-- The σb row's block at point t is entries t·256 … of σb. -/
theorem blk6 (c : Dev nD) (t : Fin cfg0.N) (q : Fin 256) (hq : t.val * 256 + q.val < 2048) :
    iblk m c 6 t (ix2 (0 : Fin 1) q) = m ((c : Thread nD τ).loc main_arg4) (ix1 (⟨t.val * 256 + q.val, hq⟩ : Fin 2048)) := by
  show V m c main_v1 (((cfg0.win 6).blk t).view.emb (ix2 (0 : Fin 1) q)) = _
  have e : ((cfg0.win 6).blk t).view.emb (ix2 (0 : Fin 1) q) = (ix2 (0 : Fin 1) (⟨t.val * 256 + q.val, hq⟩ : Fin 2048) : S1x2048.Idx) := by
    obtain ⟨-, -, -, -, -, -, -, -, -, -, -, -, e0, e1, -⟩ := idx_facts t
    funext a; apply Fin.ext
    match a with
    | ⟨0, _⟩ => show win0_6.index t (0 : Fin 2) * 1 + 1 * 0 = 0; omega
    | ⟨1, _⟩ => show win0_6.index t (1 : Fin 2) * 256 + 1 * q.val = t.val * 256 + q.val; omega
  rw [e, V_v1 m c]
  exact shapeCast_a_1a_apply _ _ _ _

/-! ## What point t writes back -/

/-- Entry (p, q) of point t's stored value is the split form at batch row p and output feature t·256 + q. -/
theorem stored_entry (c : Dev nD) (t : Fin cfg0.N) (p : Fin 2048) (q : Fin 256) (hq : t.val * 256 + q.val < 2048) :
    k0_pay1 (F := Ideal) (iblk m c 0 t) (iblk m c 4 t) (iblk m c 1 t) (iblk m c 3 t) (iblk m c 2 t) (iblk m c 6 t)
        (iblk m c 5 t) (ix2 p q)
      = splitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p (⟨t.val * 256 + q.val, hq⟩ : Fin 2048) := by
  refine (Cert.ReferenceIdeal.Point.pay_apply (iblk m c 0 t) (iblk m c 4 t) (iblk m c 1 t) (iblk m c 3 t) (iblk m c 2 t)
    (iblk m c 6 t) (iblk m c 5 t) p q).trans ?_
  unfold splitAt bias
  refine congrArg₂ (· + ·) (congrArg₂ (· + ·) (Finset.sum_congr rfl fun k _ => ?_) (congrArg₂ (· * ·) (Finset.sum_congr rfl fun k _ => ?_) ?_)) ?_
  · rw [blk0 m c t p k, blk1 m c t q k hq]
  · rw [blk0 m c t p k, blk3 m c t k, blk2 m c t q k hq]
  · rw [blk4 m c t q hq]
  · rw [blk6 m c t q hq, blk4 m c t q hq, blk5 m c t q hq]

/-- Point t writes back block t of the split form of the argument arrays. -/
theorem flushed_eq (c : Dev nD) (t : Fin cfg0.N) :
    (dats m 0 c).flushed 7 t = ((cfg0.win 7).blk t).view.read (Elt Ideal) (split (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.ReferenceIdeal.Value.flushed7]
  unfold out0_7
  rw [View.canon_unit_zero hz]
  simp only [View.ld_unit_zero (S := S1x2048) hz, View.ld_unit_zero (S := S256x2048) hz,
    View.ld_unit_zero (S := S2048x2048) hz, View.ld_unit_zero (S := S1x256) hz]
  funext y
  obtain ⟨p, q, rfl⟩ : ∃ (p : Fin 2048) (q : Fin 256), y = ix2 p q := ⟨y 0, y 1, eq_ix2 y⟩
  have ht := lt8 t
  have hq : t.val * 256 + q.val < 2048 := by have := q.isLt; omega
  have e7 : ((cfg0.win 7).blk t).view.emb (ix2 p q) = (ix2 p (⟨t.val * 256 + q.val, hq⟩ : Fin 2048) : S2048x2048.Idx) := by
    obtain ⟨-, -, -, -, -, -, -, -, -, -, -, -, -, -, e0, e1⟩ := idx_facts t
    funext a; apply Fin.ext
    match a with
    | ⟨0, _⟩ => show win0_7.index t (0 : Fin 2) * 2048 + 1 * p.val = p.val; omega
    | ⟨1, _⟩ => show win0_7.index t (1 : Fin 2) * 256 + 1 * q.val = t.val * 256 + q.val; omega
  show k0_pay1 (F := Ideal) (iblk m c 0 t) (iblk m c 4 t) (iblk m c 1 t) (iblk m c 3 t) (iblk m c 2 t) (iblk m c 6 t)
      (iblk m c 5 t) (ix2 p q)
    = split (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [e7, split_ix2]
  exact stored_entry m c t p q hq

/-! ## The eight blocks tile the result -/

/-- An index of the result is in point t's block iff each coordinate is in the block's range on its axis. -/
theorem mem_blk (t : Fin cfg0.N) (i : S2048x2048.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v4).slice (win0_7.rect t)).set ↔ _
  rw [View.set_slice_whole, Rect.mem_set_unit]
  exact Iff.rfl

/-- Every index of the result is in the block of the point its column falls in. -/
theorem cover (i : S2048x2048.Idx) : ∃ t : Fin cfg0.N, (cfg0.win 7).flush t = true ∧ i ∈ ((cfg0.win 7).blk t).view.set := by
  have hi0 : (i 0).val < 2048 := (i 0).isLt
  have hi1 : (i 1).val < 2048 := (i 1).isLt
  obtain ⟨t, htv⟩ : ∃ t : Fin cfg0.N, t.val = (i 1).val / 256 :=
    ⟨⟨(i 1).val / 256, by rw [show cfg0.N = 8 from N_0]; omega⟩, rfl⟩
  refine ⟨t, flush0_7 t, ?_⟩
  rw [mem_blk]
  obtain ⟨-, -, -, -, -, -, -, -, -, -, -, -, -, -, e0, e1⟩ := idx_facts t
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-- The result array after the run is the split form of the argument arrays. -/
theorem final (c : Dev nD) : (dats m 0 c).arrAt 7 cfg0.N = split (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

/-- Every weakly fair execution ends with the result at the split form of the arguments, the arguments unchanged. -/
theorem run : θ_run defs (onTc (τ := τ) (main (F := Ideal))) ⟨m, fun _ => 0, ρ⟩ fun r => ∀ c : Dev nD,
      r.2.mem ((c : Thread nD τ).loc main_v4) = split (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.ReferenceIdeal.Value.run_blocks m ρ)

end Cert.ReferenceIdeal.Whole

end
-- ==== Proof.Finite.lean ====
/-
  From the precondition to real entries.

  The precondition is the conjunction, over the seven inputs, of "every entry has absolute value below +∞". Read on
  the extended reals, |x| = max x (−x) lies below +∞ exactly when x is neither +∞ nor −∞, that is, when x is the
  image of a real number. The conjunction is an `and` of seven one-bit words, each the `and` over all entries of an
  array of comparison bits; the whole being 1 makes every comparison bit 1.
-/
import proofs.«156496_g2000300704241984_pallasbulk_1338_19_alg».proof.Pre_finite_inputs
import Idealize.ShloMosaic.Lib.ReduceAll
import Idealize.ShloMosaic.Lib.ValueIdx
import Idealize.ShloMosaic.PureOps.Ideal.Laws

noncomputable section

namespace Cert.NoisyLinear.Finite

open Idealize.ShloMosaic Cert.Pre_finite_inputs

variable [Cert.Pre_finite_inputs.Facts]

/-- The rank-zero shape has one index. -/
instance : Subsingleton S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value compares below +∞ is the image of a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  rw [max_lt_iff] at hlt
  induction x using EReal.rec with
  | bot => exact absurd hlt.2 (by simp)
  | coe r => exact ⟨r, rfl⟩
  | top => exact absurd hlt.1 (lt_irrefl _)

/-- Under the precondition every entry of x, μ, σ, μb, σb, εin and εout is a real. -/
theorem reals_of_pre (a0 a1 a2 : FVec Ideal S2048x2048 .f32) (a3 a4 a5 a6 : FVec Ideal S2048 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i)⟩

end Cert.NoisyLinear.Finite

end
-- ==== Proof.Claims.lean ====
/-
  The five claims.

  Each program's frame (it terminates, nothing faults, the arguments end unchanged) is the generated frame of its
  one pipelined call. The kernel's idealization rewrote nothing, so there is nothing to preserve. For the equivalence:
  the fused kernel's result array is the fused form of its arguments, the two-product kernel's the split form of its
  own; the two programs start from equal arguments; under the precondition every entry of x, μ, σ, εin and εout is a
  real number; and on real entries the fused and split forms are one array, by distributing x over the effective
  weight and pulling εout out of the sum.
-/
import proofs.«156496_g2000300704241984_pallasbulk_1338_19_alg».proof.Defs
import proofs.«156496_g2000300704241984_pallasbulk_1338_19_alg».proof.Proof.Gen.Kernel.Frame
import proofs.«156496_g2000300704241984_pallasbulk_1338_19_alg».proof.Proof.Gen.KernelIdeal.Frame
import proofs.«156496_g2000300704241984_pallasbulk_1338_19_alg».proof.Proof.Gen.ReferenceIdeal.Frame
import proofs.«156496_g2000300704241984_pallasbulk_1338_19_alg».proof.Proof.Gen.Pre_finite_inputs
import proofs.«156496_g2000300704241984_pallasbulk_1338_19_alg».proof.Proof.KernelArray
import proofs.«156496_g2000300704241984_pallasbulk_1338_19_alg».proof.Proof.RefArray
import proofs.«156496_g2000300704241984_pallasbulk_1338_19_alg».proof.Proof.Finite
import proofs.«156496_g2000300704241984_pallasbulk_1338_19_alg».proof.Proof.Spec

noncomputable section

namespace Cert.Proof.Claims

open Idealize.ShloMosaic Idealize.ShloMosaic.TcCoe Idealize.SL.Sem Cert.NoisyLinear

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

theorem preserves : Cert.preserves_Kernel_KernelIdeal := trivial

/-- Both programs end with the same result array: the fused form of the kernel's arguments, which on the real
    entries the precondition gives is the split form the reference computes from its equal arguments. -/
theorem algebraic : Cert.algebraic_KernelIdeal_ReferenceIdeal := by
  intro m ρ m' ρ' hpre hagree
  refine ⟨fun c => fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Whole.run m ρ, ?_⟩
  refine (θ_run Cert.ReferenceIdeal.defs _ _).mono (fun r h c => ⟨(h c).1.trans ?_, (h c).2⟩)
    (Cert.ReferenceIdeal.Whole.run m' ρ')
  obtain ⟨a0, a1, a2, a3, a4, a5, a6⟩ := hagree c
  obtain ⟨r0, r1, r2, -, -, r5, r6⟩ := Cert.NoisyLinear.Finite.reals_of_pre _ _ _ _ _ _ _ (hpre c)
  rw [a0, a1, a2, a3, a4, a5, a6]
  exact (fused_eq_split _ _ _ _ _ _ _ r0 r1 r2 r5 r6).symm

end Cert.Proof.Claims

end
-- ==== Proof.lean ====
/-
  A noisy linear layer computed two ways is one function of its inputs.

  The layer maps a batch x (2048 × 2048) through weights μ + σ · (εout ⊗ εin) and bias σb · εout + μb. One program
  builds the effective weight tile by tile and multiplies once; the other multiplies by μ and by σ separately, scales the
  σ product by εout, and adds. Both run as one pipelined call over eight tiles of 256 output features.

  Each program's result array is read back as one function of the argument arrays (Proof/KernelArray.lean: the fused
  form; Proof/RefArray.lean: the split form), from one entry of what a tile stores (Proof/KernelPoint.lean,
  Proof/RefPoint.lean). The two forms agree when the entries of x, μ, σ, εin and εout are real numbers
  (Proof/Spec.lean), which the precondition gives (Proof/Finite.lean). Proof/Claims.lean states the five claims;
  here they are assembled behind the witnesses of the programs' stated side conditions.
-/
import proofs.«156496_g2000300704241984_pallasbulk_1338_19_alg».proof.Defs
import proofs.«156496_g2000300704241984_pallasbulk_1338_19_alg».proof.Proof.Gen.Kernel
import proofs.«156496_g2000300704241984_pallasbulk_1338_19_alg».proof.Proof.Gen.KernelIdeal
import proofs.«156496_g2000300704241984_pallasbulk_1338_19_alg».proof.Proof.Gen.ReferenceIdeal
import proofs.«156496_g2000300704241984_pallasbulk_1338_19_alg».proof.Proof.Gen.Pre_finite_inputs
import proofs.«156496_g2000300704241984_pallasbulk_1338_19_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
